-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S19x10x64 : Shape := ⟨3, ![19, 10, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S19x10x64 : S_.BroadcastsInDim S19x10x64 (![] : Fin 0 → Fin S19x10x64.rank)
  reducesTo_S19x10x64_S_d0_1_2 : S19x10x64.ReducesTo [0, 1, 2] S_

variable [Facts]

def fn_part1 {F : FTy → Type} [FloatOps F] (main_v13 : IVec S_ 1) (main_v16 : IVec S19x10x64 1) : IVec S_ 1 :=
  let main_c_5 : IVec S_ 1 := constantI S_ 1 1#1
  let main_v17 : IVec S_ 1 := (fun x v => Host.reduce IntOp.andi x v reducesTo_S19x10x64_S_d0_1_2 h_S_) main_v16 main_c_5
  let main_v18 : IVec S_ 1 := andi main_v13 main_v17
  main_v18

def fn {F : FTy → Type} [FloatOps F] (main_arg0 : FVec F S8192x64 .f32) (main_arg1 : FVec F S8192x64 .f32) (main_arg2 : FVec F S19x10x64 .f32) (main_arg3 : FVec F S19x10x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S19x10x64 .f32 := Host.absf main_arg2
  let main_cst_2 : FVec F S_ .f32 := constant S_ .f32 0x7F800000#32
  let main_v10 : FVec F S19x10x64 .f32 := broadcastInDim S19x10x64 ![] bcast_S_S19x10x64 main_cst_2
  let main_v11 : IVec S19x10x64 1 := cmpf .olt main_v9 main_v10
  let main_c_3 : IVec S_ 1 := constantI S_ 1 1#1
  let main_v12 : IVec S_ 1 := (fun x v => Host.reduce IntOp.andi x v reducesTo_S19x10x64_S_d0_1_2 h_S_) main_v11 main_c_3
  let main_v13 : IVec S_ 1 := andi main_v8 main_v12
  let main_v14 : FVec F S19x10x64 .f32 := Host.absf main_arg3
  let main_cst_4 : FVec F S_ .f32 := constant S_ .f32 0x7F800000#32
  let main_v15 : FVec F S19x10x64 .f32 := broadcastInDim S19x10x64 ![] bcast_S_S19x10x64 main_cst_4
  let main_v16 : IVec S19x10x64 1 := cmpf .olt main_v14 main_v15
  fn_part1 (F := F) main_v13 main_v16
-- ==== Kernel.lean ====
abbrev S8192x64 : Shape := ⟨2, ![8192, 64]⟩
abbrev S19x10x64 : Shape := ⟨3, ![19, 10, 64]⟩
abbrev S190x64 : Shape := ⟨2, ![190, 64]⟩
abbrev S8192x190 : Shape := ⟨2, ![8192, 190]⟩
abbrev S128x64 : Shape := ⟨2, ![128, 64]⟩
abbrev S128x190 : Shape := ⟨2, ![128, 190]⟩
abbrev S1x190x64 : Shape := ⟨3, ![1, 190, 64]⟩
abbrev S128x1x64 : Shape := ⟨3, ![128, 1, 64]⟩
abbrev S128x190x64 : Shape := ⟨3, ![128, 190, 64]⟩
abbrev S8192x19x10 : Shape := ⟨3, ![8192, 19, 10]⟩

abbrev nBuf : Space → Nat
  | .hbm => 8
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S19x10x64, .f32⟩
  | .hbm, ⟨3, _⟩ => ⟨S19x10x64, .f32⟩
  | .hbm, ⟨4, _⟩ => ⟨S190x64, .f32⟩
  | .hbm, ⟨5, _⟩ => ⟨S190x64, .f32⟩
  | .hbm, ⟨6, _⟩ => ⟨S8192x190, .f32⟩
  | .hbm, ⟨7, _⟩ => ⟨S8192x19x10, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S190x64, .f32⟩
  | .local _ .vmem, ⟨5, _⟩ => ⟨S190x64, .f32⟩
  | .local _ .vmem, ⟨6, _⟩ => ⟨S128x190, .f32⟩
  | .local _ .vmem, ⟨7, _⟩ => ⟨S128x190, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S190x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S190x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x190 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S19x10x64_S190x64 : S19x10x64.ShapeCasts S190x64
  inb_S128x64_S128x64_0_0 : ∀ a, (![0, 0] : Fin 2 → Nat) a + S128x64.size a ≤ S128x64.size a
  h_S128x64 : 0 < S128x64.numel
  inb_S190x64_S190x64_0_0 : ∀ a, (![0, 0] : Fin 2 → Nat) a + S190x64.size a ≤ S190x64.size a
  h_S190x64 : 0 < S190x64.numel
  shapeCasts_S190x64_S190x64 : S190x64.ShapeCasts S190x64
  shapeCasts_S190x64_S1x190x64 : S190x64.ShapeCasts S1x190x64
  shapeCasts_S128x64_S128x1x64 : S128x64.ShapeCasts S128x1x64
  broadcasts_S1x190x64_S128x190x64 : S1x190x64.Broadcasts S128x190x64
  broadcasts_S128x1x64_S128x190x64 : S128x1x64.Broadcasts S128x190x64
  reduces_S128x190x64_S128x190 : S128x190x64.Reduces [2] S128x190
  inb_S128x190_S128x190_0_0 : ∀ a, (![0, 0] : Fin 2 → Nat) a + S128x190.size a ≤ S128x190.size a
  h_S128x190 : 0 < S128x190.numel
  shapeCasts_S8192x190_S8192x19x10 : S8192x190.ShapeCasts S8192x19x10
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S8192x64.size a
  hwx0_1 : ∀ i : grid0.Coords, EltTy.bits .f32 = 32 ∨ (Rect.block (s := S8192x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S190x64.size a ≤ S190x64.size a
  hwx0_2 : ∀ i : grid0.Coords, EltTy.bits .f32 = 32 ∨ (Rect.block (s := S190x64) S190x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S190x64.size a ≤ S190x64.size a
  hwx0_3 : ∀ i : grid0.Coords, EltTy.bits .f32 = 32 ∨ (Rect.block (s := S190x64) S190x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x190.size a ≤ S8192x190.size a
  hwx0_4 : ∀ i : grid0.Coords, EltTy.bits .f32 = 32 ∨ (Rect.block (s := S8192x190) S128x190.size (cc0_transform_4 i) (hinb0_4 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S190x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S190x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x190.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S19x10x64 : Shape := ⟨3, ![19, 10, 64]⟩
abbrev S19x10x1x64 : Shape := ⟨4, ![19, 10, 1, 64]⟩
abbrev S1x1x8192x64 : Shape := ⟨4, ![1, 1, 8192, 64]⟩
abbrev S19x10x8192x64 : Shape := ⟨4, ![19, 10, 8192, 64]⟩
abbrev S_ : Shape := ⟨0, ![]⟩
abbrev S19x10x8192 : Shape := ⟨3, ![19, 10, 8192]⟩
abbrev S8192x19x10 : Shape := ⟨3, ![8192, 19, 10]⟩

abbrev nBuf : Space → Nat
  | .hbm => 27
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S19x10x64, .f32⟩
  | .hbm, ⟨3, _⟩ => ⟨S19x10x64, .f32⟩
  | .hbm, ⟨4, _⟩ => ⟨S19x10x1x64, .f32⟩
  | .hbm, ⟨5, _⟩ => ⟨S19x10x1x64, .f32⟩
  | .hbm, ⟨6, _⟩ => ⟨S1x1x8192x64, .f32⟩
  | .hbm, ⟨7, _⟩ => ⟨S19x10x8192x64, .f32⟩
  | .hbm, ⟨8, _⟩ => ⟨S19x10x8192x64, .f32⟩
  | .hbm, ⟨9, _⟩ => ⟨S19x10x8192x64, .f32⟩
  | .hbm, ⟨10, _⟩ => ⟨S19x10x8192x64, .f32⟩
  | .hbm, ⟨11, _⟩ => ⟨S1x1x8192x64, .f32⟩
  | .hbm, ⟨12, _⟩ => ⟨S19x10x8192x64, .f32⟩
  | .hbm, ⟨13, _⟩ => ⟨S19x10x8192x64, .f32⟩
  | .hbm, ⟨14, _⟩ => ⟨S19x10x8192x64, .f32⟩
  | .hbm, ⟨15, _⟩ => ⟨S19x10x8192x64, .f32⟩
  | .hbm, ⟨16, _⟩ => ⟨S19x10x8192x64, .f32⟩
  | .hbm, ⟨17, _⟩ => ⟨S19x10x8192x64, .f32⟩
  | .hbm, ⟨18, _⟩ => ⟨S_, .f32⟩
  | .hbm, ⟨19, _⟩ => ⟨S19x10x8192, .f32⟩
  | .hbm, ⟨20, _⟩ => ⟨S_, .f32⟩
  | .hbm, ⟨21, _⟩ => ⟨S19x10x8192, .f32⟩
  | .hbm, ⟨22, _⟩ => ⟨S19x10x8192, .f32⟩
  | .hbm, ⟨23, _⟩ => ⟨S_, .f32⟩
  | .hbm, ⟨24, _⟩ => ⟨S19x10x8192, .f32⟩
  | .hbm, ⟨25, _⟩ => ⟨S19x10x8192, .f32⟩
  | .hbm, ⟨26, _⟩ => ⟨S8192x19x10, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S19x10x64_S19x10x1x64_0_1_3 : S19x10x64.BroadcastsInDim S19x10x1x64 (![0, 1, 3] : Fin 3 → Fin S19x10x1x64.rank)
  bcast_S8192x64_S1x1x8192x64_2_3 : S8192x64.BroadcastsInDim S1x1x8192x64 (![2, 3] : Fin 2 → Fin S1x1x8192x64.rank)
  bcast_S19x10x1x64_S19x10x8192x64_0_1_2_3 : S19x10x1x64.BroadcastsInDim S19x10x8192x64 (![0, 1, 2, 3] : Fin 4 → Fin S19x10x8192x64.rank)
  bcast_S1x1x8192x64_S19x10x8192x64_0_1_2_3 : S1x1x8192x64.BroadcastsInDim S19x10x8192x64 (![0, 1, 2, 3] : Fin 4 → Fin S19x10x8192x64.rank)
  reducesTo_S19x10x8192x64_S19x10x8192_d3 : S19x10x8192x64.ReducesTo [3] S19x10x8192
  h_S_ : 0 < S_.numel
  bcast_S_S19x10x8192 : S_.BroadcastsInDim S19x10x8192 (![] : Fin 0 → Fin S19x10x8192.rank)
  transposes_S19x10x8192_S8192x19x10_2_0_1 : S19x10x8192.Transposes [2, 0, 1] S8192x19x10

variable [Facts₀]

class Facts : Prop extends Facts₀ where

variable [Facts]
-- ==== Proof.Spec.lean ====
/-
  The similarity head both programs compute, as ONE function of the four argument arrays.

  A pixel n has a mean row x[n, ·] and a variance row vx[n, ·] of 64 channels; prototype m of class c has a mean row
  P[c, m, ·] and a variance row vp[c, m, ·]. The mutual-likelihood score of the pair is

      sim[n, c, m] = -1/2 · ( Σ_k  (P[c,m,k] − x[n,k])² / (vx[n,k] + vp[c,m,k])  +  log (vx[n,k] + vp[c,m,k]) ) / 64

  read on the extended reals, with the ideal instance's total quotient and logarithm, and the two scalars (−1/2 and 64) kept
  as the binary words the programs spell them with: the same word on both sides is never evaluated.

  One program computes the score against the 190 = 19 · 10 prototype rows laid out flat, row 10·c + m, and regroups the
  190 columns of its result into (19, 10) afterwards; the other works on the three-axis arrays throughout. `sim_flat` is
  the flat form and `sim_of_flat` says the regrouped flat form of the flattened prototypes is `sim`: a row-major regrouping
  moves no element, it only renames column 10·c + m as (c, m).
-/
import Idealize.ShloMosaic.PureOps.Ideal
import Idealize.ShloMosaic.Lib.ValueIdx
import Idealize.ShloMosaic.Lib.Pipeline.Value

noncomputable section

open scoped BigOperators

namespace Cert.Mls

open Idealize.ShloMosaic Idealize.ShloMosaic.ValueIdx

/-- One channel's contribution: the squared distance of the means over the summed variances, plus the logarithm of the
    summed variances. -/
def chan (p x vx vp : EReal) : EReal :=
  Ideal.div ((p - x) * (p - x)) (vx + vp) + Ideal.log (vx + vp)

/-- `-1/2 · (Σ_k f k) / 64` over the 64 channels, the two scalars as their binary words. -/
def scaledMean (f : Fin 64 → EReal) : EReal :=
  Ideal.ofBits .f32 0xBF000000#32 * Ideal.div (∑ k : Fin 64, f k) (Ideal.ofBits .f32 0x42800000#32)

/-- Pixel `n` against FLAT prototype row `p`. -/
def simRow (x vx : (⟨2, ![8192, 64]⟩ : Shape).Idx → EReal) (pf vpf : (⟨2, ![190, 64]⟩ : Shape).Idx → EReal)
    (n : Fin 8192) (p : Fin 190) : EReal :=
  scaledMean fun k => chan (pf (ix2 p k)) (x (ix2 n k)) (vx (ix2 n k)) (vpf (ix2 p k))

/-- The flat score array, pixels by flat prototype rows. -/
def sim_flat (x vx : (⟨2, ![8192, 64]⟩ : Shape).Idx → EReal) (pf vpf : (⟨2, ![190, 64]⟩ : Shape).Idx → EReal) :
    (⟨2, ![8192, 190]⟩ : Shape).Idx → EReal :=
  fun i => simRow x vx pf vpf (i 0) (i 1)

/-- Pixel `n` against prototype `m` of class `c`. -/
def simAt (x vx : (⟨2, ![8192, 64]⟩ : Shape).Idx → EReal) (P vp : (⟨3, ![19, 10, 64]⟩ : Shape).Idx → EReal)
    (n : Fin 8192) (c : Fin 19) (m : Fin 10) : EReal :=
  scaledMean fun k => chan (P (ix3 c m k)) (x (ix2 n k)) (vx (ix2 n k)) (vp (ix3 c m k))

/-- THE SCORE ARRAY, pixels by classes by prototypes: what both programs return. -/
def sim (x vx : (⟨2, ![8192, 64]⟩ : Shape).Idx → EReal) (P vp : (⟨3, ![19, 10, 64]⟩ : Shape).Idx → EReal) :
    (⟨3, ![8192, 19, 10]⟩ : Shape).Idx → EReal :=
  fun i => simAt x vx P vp (i 0) (i 1) (i 2)

/-- The flat row of prototype `m` of class `c` is row `10·c + m`. -/
def flatRow (c : Fin 19) (m : Fin 10) : Fin 190 := ⟨10 * c.val + m.val, by omega⟩

/-- A three-axis prototype array flattened row-major reads, at (10·c + m, k), the array at (c, m, k). -/
theorem flat_apply (P : (⟨3, ![19, 10, 64]⟩ : Shape).Idx → EReal)
    (h : (⟨3, ![19, 10, 64]⟩ : Shape).ShapeCasts ⟨2, ![190, 64]⟩) (c : Fin 19) (m : Fin 10) (k : Fin 64) :
    shapeCast ⟨2, ![190, 64]⟩ P h (ix2 (flatRow c m) k) = P (ix3 c m k) :=
  shapeCast_apply P h _ _ (by
    rw [Shape.rowMajor_val_three, Shape.rowMajor_val_two]
    show (c.val * 10 + m.val) * 64 + k.val = (10 * c.val + m.val) * 64 + k.val
    omega)

/-- REGROUPING THE FLAT SCORES: the flat score array of the row-major flattened prototypes, with its 190 columns regrouped
    row-major as (19, 10), is the score array. -/
theorem sim_of_flat (x vx : (⟨2, ![8192, 64]⟩ : Shape).Idx → EReal) (P vp : (⟨3, ![19, 10, 64]⟩ : Shape).Idx → EReal)
    (h : (⟨3, ![19, 10, 64]⟩ : Shape).ShapeCasts ⟨2, ![190, 64]⟩)
    (h' : (⟨2, ![8192, 190]⟩ : Shape).ShapeCasts ⟨3, ![8192, 19, 10]⟩) :
    shapeCast ⟨3, ![8192, 19, 10]⟩ (sim_flat x vx (shapeCast ⟨2, ![190, 64]⟩ P h) (shapeCast ⟨2, ![190, 64]⟩ vp h)) h'
      = sim x vx P vp := by
  funext i
  obtain ⟨n, c, m, rfl⟩ : ∃ (n : Fin 8192) (c : Fin 19) (m : Fin 10), i = ix3 n c m := ⟨i 0, i 1, i 2, eq_ix3 i⟩
  rw [shapeCast_apply _ h' (ix3 n c m) (ix2 n (flatRow c m)) (by
    rw [Shape.rowMajor_val_two, Shape.rowMajor_val_three]
    show n.val * 190 + (10 * c.val + m.val) = (n.val * 19 + c.val) * 10 + m.val
    omega)]
  show simRow x vx _ _ n (flatRow c m) = simAt x vx P vp n c m
  unfold simRow simAt
  refine congrArg scaledMean (funext fun k => ?_)
  rw [flat_apply P h c m k, flat_apply vp h c m k]

end Cert.Mls

end
-- ==== Proof.Reference.lean ====
/-
  The reference program computes the score array `sim`.

  The reference broadcasts the prototypes' rows to (19, 10, 1, 64) and the pixels' rows to (1, 1, 8192, 64), both to
  (19, 10, 8192, 64), and computes there, channel by channel, the squared difference of the means over the sum of the
  variances plus the logarithm of that sum; it sums the last axis from zero, divides by 64, multiplies by −1/2 and moves
  the pixel axis to the front. Read at an index (n, c, m) through the generated one-operation-at-a-time lemmas, each
  broadcast selects the coordinates it keeps, so the element at (c, m, n, k) of the four-axis arrays is the channel term of
  P[c, m, k], x[n, k], vx[n, k], vp[c, m, k]; the sum from the zero word is the plain sum; the transpose reads (c, m, n) at
  (n, c, m).
-/
import proofs.«180230_j40355512713307_1_alg».proof.Proof.Spec
import proofs.«180230_j40355512713307_1_alg».proof.Proof.Gen.ReferenceIdeal.Read

noncomputable section

open scoped BigOperators

namespace Cert.Mls.Ref

open Cert.ReferenceIdeal Cert.ReferenceIdeal.Read Idealize.ShloMosaic Idealize.ShloMosaic.ValueIdx

/-- The four-axis array of channel terms at (c, m, n, k): the term of prototype (c, m) and pixel n at channel k. -/
theorem term_at (x0 x1 : (⟨S8192x64, .f32⟩ : BufTy).Contents (Elt Ideal)) (x2 x3 : (⟨S19x10x64, .f32⟩ : BufTy).Contents (Elt Ideal))
    (n : Fin 8192) (c : Fin 19) (m : Fin 10) (k : Fin 64) :
    val_main_v13 (F := Ideal) x0 x1 x2 x3 (ix4 c m n k)
      = chan (x2 (ix3 c m k)) (x0 (ix2 n k)) (x1 (ix2 n k)) (x3 (ix3 c m k)) := by
  have eP : idx_main_v0 (idx_main_v3 (ix4 c m n k)) = ix3 c m k :=
    funext fun a => Fin.ext (by match a with | ⟨0, _⟩ => rfl | ⟨1, _⟩ => rfl | ⟨2, _⟩ => rfl)
  have eX : idx_main_v2 (idx_main_v4 (ix4 c m n k)) = ix2 n k :=
    funext fun a => Fin.ext (by match a with | ⟨0, _⟩ => rfl | ⟨1, _⟩ => rfl)
  have eVx : idx_main_v7 (idx_main_v8 (ix4 c m n k)) = ix2 n k :=
    funext fun a => Fin.ext (by match a with | ⟨0, _⟩ => rfl | ⟨1, _⟩ => rfl)
  have eVp : idx_main_v1 (idx_main_v9 (ix4 c m n k)) = ix3 c m k :=
    funext fun a => Fin.ext (by match a with | ⟨0, _⟩ => rfl | ⟨1, _⟩ => rfl | ⟨2, _⟩ => rfl)
  rw [val_main_v13_apply, val_main_v11_apply, val_main_v12_apply, val_main_v6_apply, val_main_v5_apply,
    val_main_v10_apply, val_main_v3_apply, val_main_v4_apply, val_main_v8_apply, val_main_v9_apply,
    val_main_v0_apply, val_main_v2_apply, val_main_v7_apply, val_main_v1_apply, eP, eX, eVx, eVp]
  rfl

/-- THE REFERENCE'S RESULT is the score array. -/
theorem result_eq (x0 x1 : (⟨S8192x64, .f32⟩ : BufTy).Contents (Elt Ideal)) (x2 x3 : (⟨S19x10x64, .f32⟩ : BufTy).Contents (Elt Ideal)) :
    val_main_v19 (F := Ideal) x0 x1 x2 x3 = sim x0 x1 x2 x3 := by
  funext i
  obtain ⟨n, c, m, rfl⟩ : ∃ (n : Fin 8192) (c : Fin 19) (m : Fin 10), i = ix3 n c m := ⟨i 0, i 1, i 2, eq_ix3 i⟩
  rw [val_main_v19_apply, val_main_v18_apply, val_main_v17_apply, val_main_cst_1_apply, val_main_v16_apply,
    val_main_v15_apply, val_main_cst_0_apply, val_main_v14_apply, val_main_cst_apply]
  show Ideal.ofBits .f32 0xBF000000#32 * Ideal.div (Ideal.ofBits .f32 0x00000000#32 + ∑ k : Fin 64, _) (Ideal.ofBits .f32 0x42800000#32)
    = simAt x0 x1 x2 x3 n c m
  rw [Ideal.ofBits_zero_f32, zero_add]
  unfold simAt scaledMean
  refine congrArg (fun s => Ideal.ofBits .f32 0xBF000000#32 * Ideal.div s (Ideal.ofBits .f32 0x42800000#32))
    (Finset.sum_congr rfl fun k _ => ?_)
  have e : idx_main_v14 (idx_main_v19 (ix3 n c m)) k = ix4 c m n k :=
    funext fun a => Fin.ext (by match a with | ⟨0, _⟩ => rfl | ⟨1, _⟩ => rfl | ⟨2, _⟩ => rfl | ⟨3, _⟩ => rfl)
  rw [e, term_at]

end Cert.Mls.Ref

end
-- ==== Proof.Body.lean ====
/-
  What the kernel body stores, element by element.

  The body loads a block of 128 pixel mean rows and 128 pixel variance rows and ALL 190 flat prototype mean and variance
  rows. It repeats the prototype rows along a new leading pixel axis and the pixel rows along a new middle prototype axis,
  both to (128, 190, 64); there it forms, channel by channel, the squared difference of the means over the sum of the
  variances plus the logarithm of that sum, sums the channel axis, divides by 64 and multiplies by −1/2. Read at row r and
  column p of the stored (128, 190) block, the two repetitions select prototype row p and pixel row r, and the channel
  sum is the plain sum of 64 terms: the stored element is the score of the block's pixel row r against flat prototype row p.
-/
import proofs.«180230_j40355512713307_1_alg».proof.Proof.Spec
import proofs.«180230_j40355512713307_1_alg».proof.Proof.Gen.KernelIdeal.Skeleton
import Idealize.ShloMosaic.PureOps.Ideal.Laws
import Idealize.ShloMosaic.Lib.ValueLayout

noncomputable section

open scoped BigOperators

namespace Cert.Mls.Body

open Cert.KernelIdeal Cert.KernelIdeal.Gen Idealize.ShloMosaic Idealize.ShloMosaic.ValueIdx

/-- The 190 prototype rows repeated for each of 128 pixels: element (r, p, k) is row p at channel k. -/
theorem protoRep_apply (X : FVec Ideal S190x64 .f32) (h0 : S190x64.ShapeCasts S190x64) (h1 : S190x64.ShapeCasts S1x190x64)
    (h2 : S1x190x64.Broadcasts S128x190x64) (r : Fin 128) (p : Fin 190) (k : Fin 64) :
    broadcastTo S128x190x64 (shapeCast S1x190x64 (shapeCast S190x64 X h0) h1) h2 (ix3 r p k) = X (ix2 p k) := by
  rw [broadcastTo_apply _ h2 (ix3 r p k) (ix3 (0 : Fin 1) p k) (fun a => by
      match a with
      | ⟨0, _⟩ => rfl
      | ⟨1, _⟩ => rfl
      | ⟨2, _⟩ => rfl),
    shapeCast_ab_1ab_apply _ h1 0 p k, shapeCast_self]

/-- The 128 pixel rows repeated for each of 190 prototypes: element (r, p, k) is row r at channel k. -/
theorem pixelRep_apply (Y : FVec Ideal S128x64 .f32) (h3 : S128x64.ShapeCasts S128x1x64)
    (h4 : S128x1x64.Broadcasts S128x190x64) (r : Fin 128) (p : Fin 190) (k : Fin 64) :
    broadcastTo S128x190x64 (shapeCast S128x1x64 Y h3) h4 (ix3 r p k) = Y (ix2 r k) := by
  rw [broadcastTo_apply _ h4 (ix3 r p k) (ix3 r (0 : Fin 1) k) (fun a => by
      match a with
      | ⟨0, _⟩ => rfl
      | ⟨1, _⟩ => rfl
      | ⟨2, _⟩ => rfl),
    shapeCast_apply Y h3 (ix3 r (0 : Fin 1) k) (ix2 r k) (by
      rw [Shape.rowMajor_val_two, Shape.rowMajor_val_three]
      show r.val * 64 + k.val = (r.val * 1 + 0) * 64 + k.val
      omega)]

/-- The sum over the channel axis of a (128, 190, 64) array, read at (r, p), is the sum of its 64 entries (r, p, ·). -/
theorem channelSum_apply (src : FVec Ideal S128x190x64 .f32) (h : S128x190x64.Reduces [2] S128x190)
    (hφ : FKind.Formats .f32) (hacc : (0x00000000#32 : BitVec 32) = FKind.add.neutral .f32 hφ) (r : Fin 128) (p : Fin 190) :
    multiReduction (F := Ideal) .add [2] S128x190 src 0x00000000#32 h hφ hacc (ix2 r p) = ∑ k : Fin 64, src (ix3 r p k) :=
  (Ideal.multiReduction_add_single src 0x00000000#32 h hφ hacc (ix2 r p)).trans
    (Finset.sum_congr rfl fun k _ => congrArg src (funext fun a => Fin.ext (by
      match a with
      | ⟨0, _⟩ => rfl
      | ⟨1, _⟩ => rfl
      | ⟨2, _⟩ => rfl)))

/-- The (128, 190, 64) array of channel terms the body sums: at (r, p, k) the term of prototype row p and pixel row r. -/
def terms (v0 v1 : FVec Ideal S128x64 .f32) (v2 v4 : FVec Ideal S190x64 .f32) : FVec Ideal S128x190x64 .f32 := fun j =>
  chan
    (broadcastTo S128x190x64 (shapeCast S1x190x64 (shapeCast S190x64 v2 shapeCasts_S190x64_S190x64) shapeCasts_S190x64_S1x190x64) broadcasts_S1x190x64_S128x190x64 j)
    (broadcastTo S128x190x64 (shapeCast S128x1x64 v0 shapeCasts_S128x64_S128x1x64) broadcasts_S128x1x64_S128x190x64 j)
    (broadcastTo S128x190x64 (shapeCast S128x1x64 v1 shapeCasts_S128x64_S128x1x64) broadcasts_S128x1x64_S128x190x64 j)
    (broadcastTo S128x190x64 (shapeCast S1x190x64 (shapeCast S190x64 v4 shapeCasts_S190x64_S190x64) shapeCasts_S190x64_S1x190x64) broadcasts_S1x190x64_S128x190x64 j)

theorem terms_apply (v0 v1 : FVec Ideal S128x64 .f32) (v2 v4 : FVec Ideal S190x64 .f32) (r : Fin 128) (p : Fin 190) (k : Fin 64) :
    terms v0 v1 v2 v4 (ix3 r p k) = chan (v2 (ix2 p k)) (v0 (ix2 r k)) (v1 (ix2 r k)) (v4 (ix2 p k)) := by
  unfold terms
  rw [protoRep_apply v2, protoRep_apply v4, pixelRep_apply v0, pixelRep_apply v1]

/-- The stored value is −1/2 times the channel sum of the terms over 64: the body's operations, grouped. -/
theorem stored_eq (v0 v1 : Vec Ideal S128x64 .f32) (v2 v4 : Vec Ideal S190x64 .f32) :
    k0_pay1 (F := Ideal) v0 v1 v2 v4 = fun j =>
      Ideal.ofBits .f32 0xBF000000#32 *
        Ideal.div (multiReduction (F := Ideal) .add [2] S128x190 (terms v0 v1 v2 v4) 0x00000000#32 reduces_S128x190x64_S128x190 (.inl rfl) rfl j)
          (Ideal.ofBits .f32 0x42800000#32) := rfl

/-- THE STORED ELEMENT at row r, column p: the score of pixel row r of the block against flat prototype row p. -/
theorem stored_apply (v0 v1 : Vec Ideal S128x64 .f32) (v2 v4 : Vec Ideal S190x64 .f32) (r : Fin 128) (p : Fin 190) :
    k0_pay1 (F := Ideal) v0 v1 v2 v4 (ix2 r p)
      = scaledMean fun k => chan (v2 (ix2 p k)) (v0 (ix2 r k)) (v1 (ix2 r k)) (v4 (ix2 p k)) := by
  rw [stored_eq]
  unfold scaledMean
  refine congrArg (fun s => Ideal.ofBits .f32 0xBF000000#32 * Ideal.div s (Ideal.ofBits .f32 0x42800000#32)) ?_
  refine (channelSum_apply (terms v0 v1 v2 v4) _ _ _ r p).trans (Finset.sum_congr rfl fun k _ => ?_)
  exact terms_apply v0 v1 v2 v4 r p k

end Cert.Mls.Body

end
-- ==== Proof.Blocks.lean ====
/-
  From the blocks the grid points write back to the whole (8192, 190) array of flat scores.

  The grid has 64 points. Point t is handed pixel rows 128·t … 128·t + 127 of the two pixel arrays and, at every point, all
  190 rows of the two flat prototype arrays; it writes back rows 128·t … 128·t + 127 of the result, all 190 columns. So the
  element the body stores at (r, p) — the score of the block's pixel row r against flat prototype row p — lands at
  (128·t + r, p) and is the flat score of pixel 128·t + r against row p: every point writes back its block of ONE function
  of the arrays, `sim_flat`. Row n of the result is covered by point n / 128, so the 64 blocks cover the array and the
  array ends holding `sim_flat` of the four arrays as the pallas_call finds them.
-/
import proofs.«180230_j40355512713307_1_alg».proof.Proof.Body
import proofs.«180230_j40355512713307_1_alg».proof.Proof.Gen.KernelIdeal.Frame
import Idealize.ShloMosaic.Lib.Pipeline.Value

noncomputable section

open scoped BigOperators

namespace Cert.Mls.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zeroOff : (![0, 0] : Fin 2 → Nat) = fun _ => 0 := funext fun a => by fin_cases a <;> rfl

/-- The block index maps over the grid: the pixel windows and the result window are at row block t, column block 0; the
    prototype windows stay at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's block of pixel means: its row r is row 128·t + r of the array. -/
theorem meanBlock_apply (c : Dev nD) (t : Fin cfg0.N) (r : Fin 128) (k : Fin 64) (n : Fin 8192) (hn : n.val = 128 * t.val + r.val) :
    (iblk m c 0 t : Vec Ideal S128x64 .f32) (ix2 r k) = (V m c main_arg0 : S8192x64.Idx → EReal) (ix2 n k) := by
  obtain ⟨e0, e1, -⟩ := blockIndex t
  unfold iblk
  rw [View.read_apply]
  show (V m c main_arg0 : S8192x64.Idx → EReal) _ = (V m c main_arg0 : S8192x64.Idx → EReal) _
  refine congrArg (V m c main_arg0 : S8192x64.Idx → EReal) (funext fun a => Fin.ext ?_)
  match a with
  | ⟨0, _⟩ => show win0_0.index t (0 : Fin 2) * 128 + 1 * r.val = n.val; rw [e0, hn]; omega
  | ⟨1, _⟩ => show win0_0.index t (1 : Fin 2) * 64 + 1 * k.val = k.val; rw [e1]; omega

/-- Point t's block of pixel variances: its row r is row 128·t + r of the array. -/
theorem varBlock_apply (c : Dev nD) (t : Fin cfg0.N) (r : Fin 128) (k : Fin 64) (n : Fin 8192) (hn : n.val = 128 * t.val + r.val) :
    (iblk m c 1 t : Vec Ideal S128x64 .f32) (ix2 r k) = (V m c main_arg1 : S8192x64.Idx → EReal) (ix2 n k) := by
  obtain ⟨-, -, e0, e1, -⟩ := blockIndex t
  unfold iblk
  rw [View.read_apply]
  show (V m c main_arg1 : S8192x64.Idx → EReal) _ = (V m c main_arg1 : S8192x64.Idx → EReal) _
  refine congrArg (V m c main_arg1 : S8192x64.Idx → EReal) (funext fun a => Fin.ext ?_)
  match a with
  | ⟨0, _⟩ => show win0_1.index t (0 : Fin 2) * 128 + 1 * r.val = n.val; rw [e0, hn]; omega
  | ⟨1, _⟩ => show win0_1.index t (1 : Fin 2) * 64 + 1 * k.val = k.val; rw [e1]; omega

/-- Every point's block of flat prototype means is the whole array. -/
theorem protoBlock_apply (c : Dev nD) (t : Fin cfg0.N) (p : Fin 190) (k : Fin 64) :
    (iblk m c 2 t : Vec Ideal S190x64 .f32) (ix2 p k) = (V m c main_v0 : S190x64.Idx → EReal) (ix2 p k) := by
  obtain ⟨-, -, -, -, e0, e1, -⟩ := blockIndex t
  unfold iblk
  rw [View.read_apply]
  show (V m c main_v0 : S190x64.Idx → EReal) _ = (V m c main_v0 : S190x64.Idx → EReal) _
  refine congrArg (V m c main_v0 : S190x64.Idx → EReal) (funext fun a => Fin.ext ?_)
  match a with
  | ⟨0, _⟩ => show win0_2.index t (0 : Fin 2) * 190 + 1 * p.val = p.val; rw [e0]; omega
  | ⟨1, _⟩ => show win0_2.index t (1 : Fin 2) * 64 + 1 * k.val = k.val; rw [e1]; omega

/-- Every point's block of flat prototype variances is the whole array. -/
theorem protoVarBlock_apply (c : Dev nD) (t : Fin cfg0.N) (p : Fin 190) (k : Fin 64) :
    (iblk m c 3 t : Vec Ideal S190x64 .f32) (ix2 p k) = (V m c main_v1 : S190x64.Idx → EReal) (ix2 p k) := by
  obtain ⟨-, -, -, -, -, -, e0, e1, -⟩ := blockIndex t
  unfold iblk
  rw [View.read_apply]
  show (V m c main_v1 : S190x64.Idx → EReal) _ = (V m c main_v1 : S190x64.Idx → EReal) _
  refine congrArg (V m c main_v1 : S190x64.Idx → EReal) (funext fun a => Fin.ext ?_)
  match a with
  | ⟨0, _⟩ => show win0_3.index t (0 : Fin 2) * 190 + 1 * p.val = p.val; rw [e0]; omega
  | ⟨1, _⟩ => show win0_3.index t (1 : Fin 2) * 64 + 1 * k.val = k.val; rw [e1]; omega

/-- The flat score array of the four arrays as the pallas_call finds them. -/
abbrev flatScores (c : Dev nD) : S8192x190.Idx → EReal :=
  sim_flat (V m c main_arg0) (V m c main_arg1) (V m c main_v0) (V m c main_v1)

/-- What point t's body stores at (r, p) is the flat score at (128·t + r, p). -/
theorem stored_is_score (c : Dev nD) (t : Fin cfg0.N) (j : S128x190.Idx) (i : S8192x190.Idx)
    (h0 : (i 0).val = 128 * t.val + (j 0).val) (h1 : (i 1).val = (j 1).val) :
    k0_pay1 (F := Ideal) (iblk m c 0 t) (iblk m c 1 t) (iblk m c 2 t) (iblk m c 3 t) j = flatScores m c i := by
  obtain ⟨r, p, rfl⟩ : ∃ (r : Fin 128) (p : Fin 190), j = ix2 r p := ⟨j 0, j 1, eq_ix2 j⟩
  obtain ⟨n, q, rfl⟩ : ∃ (n : Fin 8192) (q : Fin 190), i = ix2 n q := ⟨i 0, i 1, eq_ix2 i⟩
  obtain rfl : q = p := Fin.ext h1
  have hn : n.val = 128 * t.val + r.val := h0
  refine (Body.stored_apply (iblk m c 0 t) (iblk m c 1 t) (iblk m c 2 t) (iblk m c 3 t) r q).trans ?_
  show scaledMean _ = simRow _ _ _ _ n q
  unfold simRow
  refine congrArg scaledMean (funext fun k => ?_)
  rw [meanBlock_apply m c t r k n hn, varBlock_apply m c t r k n hn, protoBlock_apply m c t q k, protoVarBlock_apply m c t q k]

/-- WHAT POINT t WRITES BACK is its block of the flat score array. -/
theorem flushed_eq (c : Dev nD) (t : Fin cfg0.N) :
    (dats m 0 c).flushed 4 t = ((cfg0.win 4).blk t).view.read (Elt Ideal) (flatScores m c) := by
  obtain ⟨-, -, -, -, -, -, -, -, e0, e1⟩ := blockIndex t
  show (cfg0.win 4).cut (grid0.coords t) ((dats m 0 c).after 4 t) = _
  rw [after0_4]
  unfold out0_4
  rw [View.canon_unit_zero zeroOff]
  simp only [View.ld_unit_zero (S := S128x64) zeroOff, View.ld_unit_zero (S := S190x64) zeroOff]
  funext j
  show k0_pay1 (F := Ideal) (iblk m c 0 t) (iblk m c 1 t) (iblk m c 2 t) (iblk m c 3 t) j
    = flatScores m c (((cfg0.win 4).blk t).view.emb j)
  refine stored_is_score m c t j _ ?_ ?_
  · show win0_4.index t (0 : Fin 2) * 128 + 1 * (j 0).val = 128 * t.val + (j 0).val
    rw [e0]; omega
  · show win0_4.index t (1 : Fin 2) * 190 + 1 * (j 1).val = (j 1).val
    rw [e1]; omega

/-- An index of the result is in point t's block iff each coordinate is in the block's range on its axis. -/
theorem mem_block (t : Fin cfg0.N) (i : S8192x190.Idx) :
    i ∈ ((cfg0.win 4).blk t).view.set ↔ ∀ a : Fin 2, win0_4.index t a * S128x190.size a ≤ (i a).val ∧ (i a).val < win0_4.index t a * S128x190.size a + S128x190.size a := by
  show i ∈ ((View.whole main_v2).slice (win0_4.rect t)).set ↔ _
  rw [View.set_slice_whole, Rect.mem_set_unit]
  exact Iff.rfl

/-- Row n of the result is in the block of point n / 128: the 64 blocks cover the array. -/
theorem covered (i : S8192x190.Idx) : ∃ t : Fin cfg0.N, (cfg0.win 4).flush t = true ∧ i ∈ ((cfg0.win 4).blk t).view.set := by
  have hi0 : (i 0).val < 8192 := (i 0).isLt
  have hi1 : (i 1).val < 190 := (i 1).isLt
  have hlt : (i 0).val / 128 < cfg0.N := lt_of_lt_of_eq (by omega : (i 0).val / 128 < 64) N_0.symm
  obtain ⟨-, -, -, -, -, -, -, -, e0, e1⟩ := blockIndex ⟨(i 0).val / 128, hlt⟩
  have e0' : win0_4.index ⟨(i 0).val / 128, hlt⟩ (0 : Fin 2) = (i 0).val / 128 := e0
  refine ⟨⟨(i 0).val / 128, hlt⟩, flush0_4 _, ?_⟩
  rw [mem_block]
  intro a
  match a with
  | ⟨0, _⟩ =>
    show win0_4.index ⟨(i 0).val / 128, hlt⟩ (0 : Fin 2) * 128 ≤ (i 0).val ∧ (i 0).val < win0_4.index ⟨(i 0).val / 128, hlt⟩ (0 : Fin 2) * 128 + 128
    rw [e0']; omega
  | ⟨1, _⟩ =>
    show win0_4.index ⟨(i 0).val / 128, hlt⟩ (1 : Fin 2) * 190 ≤ (i 1).val ∧ (i 1).val < win0_4.index ⟨(i 0).val / 128, hlt⟩ (1 : Fin 2) * 190 + 190
    rw [e1]; omega

/-- THE RESULT ARRAY OF THE PALLAS_CALL after the run is the flat score array. -/
theorem final (c : Dev nD) : (dats m 0 c).arrAt 4 cfg0.N = flatScores m c :=
  (dats m 0 c).arrAt_eq_of_cover 4 (flatScores m c) (fun t _ => flushed_eq m c t) covered

end Cert.Mls.Blocks

end
-- ==== Proof.KernelRun.lean ====
/-
  The kernel program's run, read: its result is the score array.

  Around the pallas_call the program does three row-major regroupings. Before it, the two (19, 10, 64) prototype arrays
  are flattened to (190, 64): row 10·c + m is prototype m of class c. After it, the (8192, 190) array the pallas_call
  produced — the flat score array of the pixels against those 190 rows (`Blocks.final`) — has its columns regrouped as
  (19, 10). By `sim_of_flat` the result is the score array `sim` of the four arguments. The arguments themselves are never
  written: two are only staged block by block, the other two are only read by the regroupings.
-/
import proofs.«180230_j40355512713307_1_alg».proof.Proof.Blocks
import Idealize.ShloMosaic.Lib.StableHlo.Run

noncomputable section

namespace Cert.Mls.KernelRun

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The pallas_call finds the prototype means flattened row-major. -/
theorem flatMeans (c : Dev nD) :
    (V m c main_v0 : S190x64.Idx → EReal)
      = shapeCast S190x64 (m ((c : Thread nD τ).loc main_arg2) : S19x10x64.Idx → EReal) shapeCasts_S19x10x64_S190x64 := by
  show StableHlo.after hostOps0 (fun b => m (c, b)) (Proc.devRef .tc main_v0) = _
  after_results
  rfl

/-- The pallas_call finds the prototype variances flattened row-major. -/
theorem flatVars (c : Dev nD) :
    (V m c main_v1 : S190x64.Idx → EReal)
      = shapeCast S190x64 (m ((c : Thread nD τ).loc main_arg3) : S19x10x64.Idx → EReal) shapeCasts_S19x10x64_S190x64 := by
  show StableHlo.after hostOps0 (fun b => m (c, b)) (Proc.devRef .tc main_v1) = _
  after_results
  rfl

/-- The score array of the arguments as launched. -/
abbrev scores (c : Dev nD) : S8192x19x10.Idx → EReal :=
  sim (m ((c : Thread nD τ).loc main_arg0)) (m ((c : Thread nD τ).loc main_arg1))
    (m ((c : Thread nD τ).loc main_arg2)) (m ((c : Thread nD τ).loc main_arg3))

/-- THE PROGRAM'S RESULT, after the regrouping that follows the pallas_call, is the score array. -/
theorem result_eq (c : Dev nD) :
    (Pipeline.afterTail₀ cfgs (dats m) 0 (V0 m) [hostOps1] c main_v3 : S8192x19x10.Idx → EReal) = scores m c := by
  have e : Pipeline.withArrays (cfgs 0).spec c (V0 m c) (fun w => (dats m 0 c).arrAt w (cfgs 0).N) (Proc.devRef .tc main_v2)
      = Blocks.flatScores m c :=
    (Pipeline.withArrays_arr spec0 launch0.win.arr_inj c _ _ 4).trans (Blocks.final m c)
  unfold Pipeline.afterTail₀
  show StableHlo.after hostOps1 _ (Proc.devRef .tc main_v3) = _
  after_results
  show shapeCast S8192x19x10 (Pipeline.withArrays (cfgs 0).spec c (V0 m c) (fun w => (dats m 0 c).arrAt w (cfgs 0).N) (Proc.devRef .tc main_v2))
      shapeCasts_S8192x190_S8192x19x10 = _
  refine (congrArg (fun A : S8192x190.Idx → EReal => shapeCast S8192x19x10 A shapeCasts_S8192x190_S8192x19x10) e).trans ?_
  show shapeCast S8192x19x10 (sim_flat (V m c main_arg0) (V m c main_arg1) (V m c main_v0) (V m c main_v1)) shapeCasts_S8192x190_S8192x19x10 = _
  rw [V_main_arg0 m c, V_main_arg1 m c, flatMeans m c, flatVars m c]
  exact sim_of_flat _ _ _ _ _ _

/-- THE RUN: every weakly fair execution of the kernel program terminates with the result array at the score array of the
    arguments and the four arguments unchanged (the generated frame run, its post read at the result and at the arguments). -/
theorem run : θ_run defs (onTc (τ := τ) (main (F := Ideal))) ⟨m, fun _ => 0, ρ⟩ fun r => ∀ c : Dev nD,
      r.2.mem ((c.tc : Thread nD τ).loc main_v3) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Mls.KernelRun

end
-- ==== Proof.lean ====
/-
  A probabilistic-prototype similarity head: a Pallas TPU kernel against its jnp reference, equal on the extended reals.

  For 8192 pixels with mean and variance rows x, vx of 64 channels, and 19 classes of 10 prototypes with mean and variance
  rows P, vp, both programs return the (8192, 19, 10) array

      sim[n, c, m] = -1/2 · ( Σ_k  (P[c,m,k] − x[n,k])² / (vx[n,k] + vp[c,m,k])  +  log (vx[n,k] + vp[c,m,k]) ) / 64 .

  The reference broadcasts everything to (19, 10, 8192, 64), sums the last axis and moves the pixel axis to the front
  (Proof/Reference.lean). The kernel flattens the prototypes to 190 rows, computes in 64 grid points of 128 pixel rows each
  the (8192, 190) array of flat scores (Proof/Body.lean: one stored element; Proof/Blocks.lean: the blocks cover the array)
  and regroups its columns as (19, 10) (Proof/KernelRun.lean). Both perform the SAME scalar operations in the same order on
  the same operands — the same difference, product, sum of variances, quotient, logarithm, sum from zero over the 64
  channels, quotient by the word of 64 and product with the word of −1/2 — so the two results are one function of the
  arguments (Proof/Spec.lean) and no law of arithmetic, hence no finiteness of the inputs, is used: the equality holds at
  every extended-real input, the programs' quotient by zero and logarithm of a non-positive number included, because both
  sides apply the same total operations there. A row-major regrouping moves no element, and column 10·c + m of the flat scores
  is (c, m).

  The three frames are the generated ones (the reference's its generated run with the result dropped); the idealization
  rewrote nothing, so the kernel's idealization is its own text read on the extended reals and `preserves` is trivial.
-/
import proofs.«180230_j40355512713307_1_alg».proof.Defs
import proofs.«180230_j40355512713307_1_alg».proof.Proof.Gen.Kernel
import proofs.«180230_j40355512713307_1_alg».proof.Proof.Gen.Kernel.Frame
import proofs.«180230_j40355512713307_1_alg».proof.Proof.Gen.KernelIdeal
import proofs.«180230_j40355512713307_1_alg».proof.Proof.Gen.KernelIdeal.Frame
import proofs.«180230_j40355512713307_1_alg».proof.Proof.Gen.ReferenceIdeal
import proofs.«180230_j40355512713307_1_alg».proof.Proof.Gen.Pre_finite_inputs
import proofs.«180230_j40355512713307_1_alg».proof.Proof.Gen.ReferenceIdeal.Run
import proofs.«180230_j40355512713307_1_alg».proof.Proof.Gen.ReferenceIdeal.Read
import proofs.«180230_j40355512713307_1_alg».proof.Proof.Reference
import proofs.«180230_j40355512713307_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments both programs end with the score array of those arguments. -/
theorem algebraic : Cert.algebraic_KernelIdeal_ReferenceIdeal := by
  intro m ρ m' ρ' _ hagree
  refine ⟨fun c => Cert.Mls.KernelRun.scores m c, Cert.Mls.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Mls.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
